-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 89
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x128, .f32⟩
  | .hbm, ⟨115, _⟩ => ⟨S850000x1, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel program's run, with its result named.

  The program is a line of host operations, a pipelined matrix product over 25 blocks of 2000 rows, more host
  operations, a second such product, and a last stretch of host operations. Every weakly fair execution ends, nothing
  faulting, with each buffer the thread holds at the contents of the last boundary of that chain (`Gen.W8`: the last
  stretch's operations applied to what the second product leaves). Read at the result buffer this names the program's
  result; read at the six arguments it says they end as launched.
-/
import proofs.«115169_j35897336660441_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the six argument arrays end as launched. -/
theorem run_main : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.Dot.lean ====
/-
  The two matrix products of this certificate, read at an index over the extended reals.

  On the host the product of an [n, 256] array with a [256, p] array is `dot_general` contracting the left
  operand's axis 1 with the right operand's axis 0; inside the kernels it is `tpu.matmul` of a [2000, 256] block
  of rows with the whole [256, p] weight, into a zero accumulator. At the ideal instance each of them is, entry
  by entry, the sum over k < 256 of (row r of the left operand at k) times (column q of the right operand at k),
  the contraction's one axis being enumerated by `Fin 256`. The four lemmas below say so for the two widths
  p = 256 and p = 128.
-/
import proofs.«115169_j35897336660441_1_alg».proof.Proof.Gen.KernelIdeal
import proofs.«115169_j35897336660441_1_alg».proof.Proof.Gen.ReferenceIdeal
import Idealize.ShloMosaic.Lib.ValueIdx
import Idealize.ShloMosaic.PureOps.Ideal.Laws

noncomputable section

open Idealize.ShloMosaic

namespace Cert.Bridge

/-- Entry (r, k) of an array with 256 columns, r the row of the index `i`. -/
abbrev rowAt {n p : Nat} (i : (⟨2, ![n, p]⟩ : Shape).Idx) (k : Fin 256) : (⟨2, ![n, 256]⟩ : Shape).Idx := fun a => match a with
  | ⟨0, _⟩ => ⟨(i 0).val, (i 0).isLt⟩
  | ⟨1, _⟩ => ⟨k.val, k.isLt⟩

/-- Entry (k, q) of a weight with 256 rows, q the column of the index `i`. -/
abbrev colAt {n p : Nat} (i : (⟨2, ![n, p]⟩ : Shape).Idx) (k : Fin 256) : (⟨2, ![256, p]⟩ : Shape).Idx := fun a => match a with
  | ⟨0, _⟩ => ⟨k.val, k.isLt⟩
  | ⟨1, _⟩ => ⟨(i 1).val, (i 1).isLt⟩

section Host
open Cert.ReferenceIdeal

theorem hostDotA_row (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem hostDotA_col (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl
/-- The host product [50000, 256] × [256, 256] at an entry. -/
theorem hostDotA_apply (x : FVec Ideal S50000x256 .f32) (w : FVec Ideal S256x256 .f32) (i : S50000x256.Idx) :
    Host.dotGeneral (F := Ideal) dot_S50000x256_S256x256_S50000x256_1_0_0_1_n_n none x w i
      = ∑ k : Fin 256, x (rowAt i k) * w (colAt i k) := by
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx i ((ValueIdx.contrEquiv1 dot_S50000x256_S256x256_S50000x256_1_0_0_1_n_n 256 rfl rfl).symm k) = rowAt i k := funext fun a => Fin.ext (by
    match a with
    | ⟨0, _⟩ => exact hostDotA_row _ _
    | ⟨1, _⟩ => exact (dot_S50000x256_S256x256_S50000x256_1_0_0_1_n_n.lhsIdx_val_of_single rfl i _).trans hk)
  have er : dot_S50000x256_S256x256_S50000x256_1_0_0_1_n_n.rhsIdx i ((ValueIdx.contrEquiv1 dot_S50000x256_S256x256_S50000x256_1_0_0_1_n_n 256 rfl rfl).symm k) = colAt i k := funext fun a => Fin.ext (by
    match a with
    | ⟨0, _⟩ => exact (dot_S50000x256_S256x256_S50000x256_1_0_0_1_n_n.rhsIdx_val_of_single rfl i _).trans hk
    | ⟨1, _⟩ => exact hostDotA_col _ _)
  rw [el, er]

theorem hostDotB_row (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem hostDotB_col (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl
/-- The host product [50000, 256] × [256, 128] at an entry. -/
theorem hostDotB_apply (x : FVec Ideal S50000x256 .f32) (w : FVec Ideal S256x128 .f32) (i : S50000x128.Idx) :
    Host.dotGeneral (F := Ideal) dot_S50000x256_S256x128_S50000x128_1_0_0_1_n_n none x w i
      = ∑ k : Fin 256, x (rowAt i k) * w (colAt i k) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k) = rowAt i k := funext fun a => Fin.ext (by
    match a with
    | ⟨0, _⟩ => exact hostDotB_row _ _
    | ⟨1, _⟩ => exact (dot_S50000x256_S256x128_S50000x128_1_0_0_1_n_n.lhsIdx_val_of_single rfl i _).trans hk)
  have er : dot_S50000x256_S256x128_S50000x128_1_0_0_1_n_n.rhsIdx i ((ValueIdx.contrEquiv1 dot_S50000x256_S256x128_S50000x128_1_0_0_1_n_n 256 rfl rfl).symm k) = colAt i k := funext fun a => Fin.ext (by
    match a with
    | ⟨0, _⟩ => exact (dot_S50000x256_S256x128_S50000x128_1_0_0_1_n_n.rhsIdx_val_of_single rfl i _).trans hk
    | ⟨1, _⟩ => exact hostDotB_col _ _)
  rw [el, er]

end Host

section Block
open Cert.KernelIdeal

theorem blockDotA_row (j : S2000x256.Idx) (q : dot_S2000x256_S256x256_S2000x256_1_0_0_1_n_n.contr.Idx) :
    (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem blockDotA_col (j : S2000x256.Idx) (q : dot_S2000x256_S256x256_S2000x256_1_0_0_1_n_n.contr.Idx) :
    (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl
/-- The kernel's product of a [2000, 256] block of rows with the [256, 256] weight, into zeros, at an entry. -/
theorem blockDotA_apply (x : FVec Ideal S2000x256 .bf16) (w : FVec Ideal S256x256 .bf16) (j : S2000x256.Idx) :
    matmul (F := Ideal) dot_S2000x256_S256x256_S2000x256_1_0_0_1_n_n none x w (constant S2000x256 .f32 0x00000000#32) j
      = ∑ k : Fin 256, x (rowAt j k) * w (colAt j k) := by
  show FloatOps.matmul _ _ _ _ _ _ = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = rowAt j k := funext fun a => Fin.ext (by
    match a with
    | ⟨0, _⟩ => exact blockDotA_row _ _
    | ⟨1, _⟩ => exact (dot_S2000x256_S256x256_S2000x256_1_0_0_1_n_n.lhsIdx_val_of_single rfl j _).trans hk)
  have er : dot_S2000x256_S256x256_S2000x256_1_0_0_1_n_n.rhsIdx j ((ValueIdx.contrEquiv1 dot_S2000x256_S256x256_S2000x256_1_0_0_1_n_n 256 rfl rfl).symm k) = colAt j k := funext fun a => Fin.ext (by
    match a with
    | ⟨0, _⟩ => exact (dot_S2000x256_S256x256_S2000x256_1_0_0_1_n_n.rhsIdx_val_of_single rfl j _).trans hk
    | ⟨1, _⟩ => exact blockDotA_col _ _)
  rw [el, er]

theorem blockDotB_row (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem blockDotB_col (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl
/-- The kernel's product of a [2000, 256] block of rows with the [256, 128] weight, into zeros, at an entry. -/
theorem blockDotB_apply (x : FVec Ideal S2000x256 .bf16) (w : FVec Ideal S256x128 .bf16) (j : S2000x128.Idx) :
    matmul (F := Ideal) dot_S2000x256_S256x128_S2000x128_1_0_0_1_n_n none x w (constant S2000x128 .f32 0x00000000#32) j
      = ∑ k : Fin 256, x (rowAt j k) * w (colAt j k) := by
  show FloatOps.matmul _ _ _ _ _ _ = _
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = rowAt j k := funext fun a => Fin.ext (by
    match a with
    | ⟨0, _⟩ => exact blockDotB_row _ _
    | ⟨1, _⟩ => exact (dot_S2000x256_S256x128_S2000x128_1_0_0_1_n_n.lhsIdx_val_of_single rfl j _).trans hk)
  have er : dot_S2000x256_S256x128_S2000x128_1_0_0_1_n_n.rhsIdx j ((ValueIdx.contrEquiv1 dot_S2000x256_S256x128_S2000x128_1_0_0_1_n_n 256 rfl rfl).symm k) = colAt j k := funext fun a => Fin.ext (by
    match a with
    | ⟨0, _⟩ => exact (dot_S2000x256_S256x128_S2000x128_1_0_0_1_n_n.rhsIdx_val_of_single rfl j _).trans hk
    | ⟨1, _⟩ => exact blockDotB_col _ _)
  rw [el, er]

end Block

end Cert.Bridge

end
-- ==== Proof.Regions.lean ====
/-
  The two pipelined matrix products, each as one function of the arrays its region is entered with.

  A region walks 25 grid points. At point t the pipeline stages rows 2000 t … 2000 t + 1999 of the left operand (all 256
  columns) and the whole [256, p] weight, the body stores the product of the two staged blocks (the casts to bf16 are
  the identity on the extended reals, the accumulator starts at zero) and the pipeline writes it back as rows
  2000 t … 2000 t + 1999 of the output. Entry (r, q) of that block is the sum over k < 256 of the left array's
  (2000 t + r, k) times the weight's (k, q): exactly entry (2000 t + r, q) of the product of the two whole arrays. The 25
  blocks tile the output, so after the region the output array IS that product, whatever the region's entry contents.
-/
import proofs.«115169_j35897336660441_1_alg».proof.Proof.Gen.KernelIdeal.Frame
import proofs.«115169_j35897336660441_1_alg».proof.Proof.Dot
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

-- The TensorCore's buffer contents when a region is entered (any contents: the statements hold for all of them).
variable (V : (c : Dev nD) → (b : Ref sig .tc) → Buf (Elt Ideal) ((c : Thread nD τ).loc b))

theorem hz : (![0, 0] : Fin 2 → Nat) = fun _ => 0 := funext fun a => by fin_cases a <;> rfl

/-! ## Product 0: [50000, 256] × [256, 256] -/

/-- The whole-array function the first pipelined product computes: the host-style matrix product of the two
    arrays its input windows stage, as the region finds them. -/
abbrev prod0 (c : Dev nD) : Buf (Elt Ideal) ((c : Thread nD τ).loc main_v30) :=
  Host.dotGeneral (F := Ideal) (φ₁ := .f32) (φ₂ := .f32) Cert.ReferenceIdeal.dot_S50000x256_S256x256_S50000x256_1_0_0_1_n_n none (V c main_arg0) (V c main_arg2)

/-- The body's stored value at an entry of the block: the sum over k of the row block's (r, k) times the weight's (k, q). -/
theorem pay0_apply (x0 : Vec Ideal S2000x256 .f32) (x1 : Vec Ideal S256x256 .f32) (j : S2000x256.Idx) :
    k0_pay1 x0 x1 j = ∑ k : Fin 256, x0 (Cert.Bridge.rowAt j k) * x1 (Cert.Bridge.colAt j k) := by
  unfold k0_pay1
  exact Cert.Bridge.blockDotA_apply _ _ j

/-- The printed block index maps over the 25 grid points: point t takes row block t of the left operand and of the
    output, and the whole weight. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of the product of the whole arrays: entry (r, q) of the block is the sum over
    k of row 2000 t + r of the left array at k times the weight at (k, q). -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  funext j
  show k0_pay1 (iblk0 V c 0 t) (iblk0 V c 1 t) j = prod0 V c (((cfg0.win 2).blk t).view.emb j)
  refine (pay0_apply _ _ j).trans ?_
  refine Eq.trans ?_ (Cert.Bridge.hostDotA_apply _ _ _).symm
  refine Finset.sum_congr rfl fun k _ => ?_
  obtain ⟨e0, e1, e2, e3, e4, e5⟩ := idx_facts0 t
  have h0 : ((cfg0.win 0).blk t).view.emb (Cert.Bridge.rowAt j k) = Cert.Bridge.rowAt (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (Cert.Bridge.colAt j k) = Cert.Bridge.colAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  have hx : iblk0 V c 0 t (Cert.Bridge.rowAt j k) = V c main_arg0 (Cert.Bridge.rowAt (((cfg0.win 2).blk t).view.emb j) k) := by
    show V c main_arg0 (((cfg0.win 0).blk t).view.emb (Cert.Bridge.rowAt j k)) = _
    rw [h0]
  have hw : iblk0 V c 1 t (Cert.Bridge.colAt j k) = V c main_arg2 (Cert.Bridge.colAt (((cfg0.win 2).blk t).view.emb j) k) := by
    show V c main_arg2 (((cfg0.win 1).blk t).view.emb (Cert.Bridge.colAt j k)) = _
    rw [h1]
  exact congrArg₂ (· * ·) hx hw

/-- An index of the output array lies in point t's block iff each coordinate lies in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The 25 row blocks cover the output array: row r lies in the block of point r / 2000. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨e0, e1, e2, e3, e4, e5⟩ := idx_facts0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    have e5' : win0_2.index ⟨(i 0).val / 2000, ht⟩ (0 : Fin 2) = (i 0).val / 2000 := e5
    omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    omega

/-- The output array after the region is the product of the two whole input arrays. -/
theorem final0 (c : Dev nD) : (dat0 V c).arrAt 2 cfg0.N = prod0 V c :=
  (dat0 V c).arrAt_eq_of_cover 2 (prod0 V c) (fun t _ => flushed0_eq V c t) (cover0)

/-! ## Product 1: [50000, 256] × [256, 128] -/

/-- The whole-array function the second pipelined product computes: the host-style matrix product of the two
    arrays its input windows stage, as the region finds them. -/
abbrev prod1 (c : Dev nD) : Buf (Elt Ideal) ((c : Thread nD τ).loc main_v48) :=
  Host.dotGeneral (F := Ideal) (φ₁ := .f32) (φ₂ := .f32) Cert.ReferenceIdeal.dot_S50000x256_S256x128_S50000x128_1_0_0_1_n_n none (V c main_v47) (V c main_arg4)

/-- The body's stored value at an entry of the block: the sum over k of the row block's (r, k) times the weight's (k, q). -/
theorem pay1_apply (x0 : Vec Ideal S2000x256 .f32) (x1 : Vec Ideal S256x128 .f32) (j : S2000x128.Idx) :
    k1_pay1 x0 x1 j = ∑ k : Fin 256, x0 (Cert.Bridge.rowAt j k) * x1 (Cert.Bridge.colAt j k) := by
  unfold k1_pay1
  refine (Cert.Bridge.blockDotB_apply _ _ j).trans ?_
  refine Finset.sum_congr rfl fun k _ => ?_
  show (shapeCast S2000x256 x0 shapeCasts_S2000x256_S2000x256) (Cert.Bridge.rowAt j k) * x1 (Cert.Bridge.colAt j k) = _
  rw [shapeCast_self]

/-- The printed block index maps over the 25 grid points: point t takes row block t of the left operand and of the
    output, and the whole weight. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- What point t writes back is block t of the product of the whole arrays: entry (r, q) of the block is the sum over
    k of row 2000 t + r of the left array at k times the weight at (k, q). -/
theorem flushed1_eq (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x128) hz]
  funext j
  show k1_pay1 (iblk1 V c 0 t) (iblk1 V c 1 t) j = prod1 V c (((cfg1.win 2).blk t).view.emb j)
  refine (pay1_apply _ _ j).trans ?_
  refine Eq.trans ?_ (Cert.Bridge.hostDotB_apply _ _ _).symm
  refine Finset.sum_congr rfl fun k _ => ?_
  obtain ⟨e0, e1, e2, e3, e4, e5⟩ := idx_facts1 t
  have h0 : ((cfg1.win 0).blk t).view.emb (Cert.Bridge.rowAt j k) = Cert.Bridge.rowAt (((cfg1.win 2).blk t).view.emb j) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  have h1 : ((cfg1.win 1).blk t).view.emb (Cert.Bridge.colAt j k) = Cert.Bridge.colAt (((cfg1.win 2).blk t).view.emb j) k := by
    funext a; apply Fin.ext
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega
  have hx : iblk1 V c 0 t (Cert.Bridge.rowAt j k) = V c main_v47 (Cert.Bridge.rowAt (((cfg1.win 2).blk t).view.emb j) k) := by
    show V c main_v47 (((cfg1.win 0).blk t).view.emb (Cert.Bridge.rowAt j k)) = _
    rw [h0]
  have hw : iblk1 V c 1 t (Cert.Bridge.colAt j k) = V c main_arg4 (Cert.Bridge.colAt (((cfg1.win 2).blk t).view.emb j) k) := by
    show V c main_arg4 (((cfg1.win 1).blk t).view.emb (Cert.Bridge.colAt j k)) = _
    rw [h1]
  exact congrArg₂ (· * ·) hx hw

/-- An index of the output array lies in point t's block iff each coordinate lies in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- The 25 row blocks cover the output array: row r lies in the block of point r / 2000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨e0, e1, e2, e3, e4, e5⟩ := idx_facts1 ⟨(i 0).val / 2000, ht⟩
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    have e5' : win1_2.index ⟨(i 0).val / 2000, ht⟩ (0 : Fin 2) = (i 0).val / 2000 := e5
    omega
  | ⟨1, _⟩ =>
    show win1_2.index ⟨(i 0).val / 2000, ht⟩ (1 : Fin 2) * 128 ≤ (i 1).val ∧ (i 1).val < win1_2.index ⟨(i 0).val / 2000, ht⟩ (1 : Fin 2) * 128 + 128
    omega

/-- The output array after the region is the product of the two whole input arrays. -/
theorem final1 (c : Dev nD) : (dat1 V c).arrAt 2 cfg1.N = prod1 V c :=
  (dat1 V c).arrAt_eq_of_cover 2 (prod1 V c) (fun t _ => flushed1_eq V c t) (cover1)

end Cert.KernelIdeal.Hand

end
-- ==== Proof.HostSpec.lean ====
/-
  The host operations of the graph convolution, named.

  With s and d the edge sources and targets extended by one self-loop per node (850000 = 800000 + 50000 entries):
    deg  = the accumulating scatter of ones at d                    (how many edges end at each node),
    dinv = 1 / sqrt deg where deg > 0, else 0,
    norm = dinv[s] · dinv[d]                                         (one weight per edge),
    a layer's aggregation of a node table xw = the accumulating scatter at d of xw[s] · norm, plus the bias row,
  an index below zero being wrapped by +50000 before a gather, as numpy-style indexing does. Each function below is the
  composition of the program's own host operations in the program's order, so that the program's buffers are these
  functions of one another by unfolding alone; nothing is computed here.
-/
import proofs.«115169_j35897336660441_1_alg».proof.Proof.Gen.KernelIdeal

noncomputable section

namespace Cert.KernelIdeal.Hand

open Cert.KernelIdeal Cert.KernelIdeal.Gen Idealize.ShloMosaic

variable {F : FTy → Type} [FloatOps F]

/-- The edge sources followed by every node once: row 0 of the edge table, then 0 … 49999. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edge targets followed by every node once: row 1 of the edge table, then 0 … 49999. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- An index below zero counts from the end: + 50000. -/
def wrapIdx (s : (⟨S850000, .i32⟩ : BufTy).Contents (Elt F)) : (⟨S850000, .i32⟩ : BufTy).Contents (Elt F) :=
  select (cmpi .slt s (broadcastInDim S850000 ![] bcast_S_S850000 (constantI S_ 32 0#32))) (addi s (broadcastInDim S850000 ![] bcast_S_S850000 (constantI S_ 32 50000#32))) s

/-- The number of edges that end at each node: ones accumulated at the targets. -/
def degOf (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- 1 / sqrt deg where deg > 0, else 0. -/
def dinvOf (d : (⟨S850000, .i32⟩ : BufTy).Contents (Elt F)) : (⟨S50000, .f32⟩ : BufTy).Contents (Elt F) :=
  select (cmpf .ogt (degOf (F := F) d) (broadcastInDim S50000 ![] bcast_S_S50000 (constant S_ .f32 0x00000000#32))) (Host.rsqrt (degOf (F := F) d)) (broadcastInDim S50000 ![] bcast_S_S50000 (id (constant S_ .f32 0x00000000#32)))

/-- The weight of each edge: dinv at its source times dinv at its target. -/
def normOf (s d : (⟨S850000, .i32⟩ : BufTy).Contents (Elt F)) : (⟨S850000, .f32⟩ : BufTy).Contents (Elt F) :=
  mulf (Host.gather gather_S50000_S850000x1_S850000_n_0_n_n_0_1_1 (dinvOf (F := F) d) (broadcastInDim S850000x1 ![0] bcast_S850000_S850000x1_0 (wrapIdx (F := F) s)))
    (Host.gather gather_S50000_S850000x1_S850000_n_0_n_n_0_1_1 (dinvOf (F := F) d) (broadcastInDim S850000x1 ![0] bcast_S850000_S850000x1_0 (wrapIdx (F := F) d)))

/-- The first layer's aggregation of a [50000, 256] node table: rows gathered at the sources, scaled by the edge
    weights, accumulated at the targets, plus the bias row. -/
def aggA (xw : (⟨S50000x256, .f32⟩ : BufTy).Contents (Elt F)) (s d : (⟨S850000, .i32⟩ : BufTy).Contents (Elt F))
    (nrm : (⟨S850000, .f32⟩ : BufTy).Contents (Elt F)) (b : (⟨S256, .f32⟩ : BufTy).Contents (Elt F)) : (⟨S50000x256, .f32⟩ : BufTy).Contents (Elt F) :=
  addf (Host.scatterAdd scatter_S50000x256_S850000x1_S850000x256_1_0_0_1 (broadcastInDim S50000x256 ![] bcast_S_S50000x256 (constant S_ .f32 0x00000000#32)) (broadcastInDim S850000x1 ![0] bcast_S850000_S850000x1_0 d)
      (mulf (Host.gather gather_S50000x256_S850000x1_S850000x256_1_0_n_n_0_1_1256 xw (broadcastInDim S850000x1 ![0] bcast_S850000_S850000x1_0 (wrapIdx (F := F) s)))
        (broadcastInDim S850000x256 ![0, 1] bcast_S850000x1_S850000x256_0_1 (broadcastInDim S850000x1 ![0] bcast_S850000_S850000x1_0 nrm))))
    (broadcastInDim S50000x256 ![0, 1] bcast_S1x256_S50000x256_0_1 (broadcastInDim S1x256 ![1] bcast_S256_S1x256_1 b))

/-- The positive part. -/
def reluA (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-- The second layer's aggregation of a [50000, 128] node table. -/
def aggB (xw : (⟨S50000x128, .f32⟩ : BufTy).Contents (Elt F)) (s d : (⟨S850000, .i32⟩ : BufTy).Contents (Elt F))
    (nrm : (⟨S850000, .f32⟩ : BufTy).Contents (Elt F)) (b : (⟨S128, .f32⟩ : BufTy).Contents (Elt F)) : (⟨S50000x128, .f32⟩ : BufTy).Contents (Elt F) :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 d)
      (mulf (Host.gather gather_S50000x128_S850000x1_S850000x128_1_0_n_n_0_1_1128 xw (broadcastInDim S850000x1 ![0] bcast_S850000_S850000x1_0 (wrapIdx (F := F) s)))
        (broadcastInDim S850000x128 ![0, 1] bcast_S850000x1_S850000x128_0_1 (broadcastInDim S850000x1 ![0] bcast_S850000_S850000x1_0 nrm))))
    (broadcastInDim S50000x128 ![0, 1] bcast_S1x128_S50000x128_0_1 (broadcastInDim S1x128 ![1] bcast_S128_S1x128_1 b))

end Cert.KernelIdeal.Hand

end
-- ==== Proof.Gcn.lean ====
/-
  The two-layer graph convolution as one function of the program's six arguments:
  out = agg₂ (relu (agg₁ (z · W1) + b1) · W2) + b2 over the self-looped, degree-normalised graph, the two matrix
  products spelt as the host's `dot_general`.
-/
import proofs.«115169_j35897336660441_1_alg».proof.Proof.HostSpec
import proofs.«115169_j35897336660441_1_alg».proof.Proof.Gen.ReferenceIdeal
import Idealize.ShloMosaic.PureOps.Ideal

noncomputable section

namespace Cert.KernelIdeal.Hand

open Cert.KernelIdeal Cert.KernelIdeal.Gen Idealize.ShloMosaic

/-- The host product [50000, 256] × [256, 256]. -/
abbrev dotA (x : (⟨S50000x256, .f32⟩ : BufTy).Contents (Elt Ideal)) (w : (⟨S256x256, .f32⟩ : BufTy).Contents (Elt Ideal)) :
    (⟨S50000x256, .f32⟩ : BufTy).Contents (Elt Ideal) :=
  Host.dotGeneral (F := Ideal) (φ₁ := .f32) (φ₂ := .f32) Cert.ReferenceIdeal.dot_S50000x256_S256x256_S50000x256_1_0_0_1_n_n none x w

/-- The host product [50000, 256] × [256, 128]. -/
abbrev dotB (x : (⟨S50000x256, .f32⟩ : BufTy).Contents (Elt Ideal)) (w : (⟨S256x128, .f32⟩ : BufTy).Contents (Elt Ideal)) :
    (⟨S50000x128, .f32⟩ : BufTy).Contents (Elt Ideal) :=
  Host.dotGeneral (F := Ideal) (φ₁ := .f32) (φ₂ := .f32) Cert.ReferenceIdeal.dot_S50000x256_S256x128_S50000x128_1_0_0_1_n_n none x w

/-- The network's output from its six arguments. -/
def gcn (z : (⟨S50000x256, .f32⟩ : BufTy).Contents (Elt Ideal)) (e : (⟨S2x800000, .i32⟩ : BufTy).Contents (Elt Ideal))
    (W1 : (⟨S256x256, .f32⟩ : BufTy).Contents (Elt Ideal)) (b1 : (⟨S256, .f32⟩ : BufTy).Contents (Elt Ideal))
    (W2 : (⟨S256x128, .f32⟩ : BufTy).Contents (Elt Ideal)) (b2 : (⟨S128, .f32⟩ : BufTy).Contents (Elt Ideal)) :
    (⟨S50000x128, .f32⟩ : BufTy).Contents (Elt Ideal) :=
  aggB (F := Ideal)
    (dotB (reluA (F := Ideal) (aggA (F := Ideal) (dotA z W1) (srcOf (F := Ideal) e) (dstOf (F := Ideal) e)
      (normOf (F := Ideal) (srcOf (F := Ideal) e) (dstOf (F := Ideal) e)) b1)) W2)
    (srcOf (F := Ideal) e) (dstOf (F := Ideal) e) (normOf (F := Ideal) (srcOf (F := Ideal) e) (dstOf (F := Ideal) e)) b2

end Cert.KernelIdeal.Hand

end
-- ==== Proof.KernelValue.lean ====
/-
  The idealized kernel program's result is the graph convolution of its arguments.

  The program's buffers at the boundaries of its chain (before the first product, after it, before the second, after
  it, at the end) are read one stretch at a time. A stretch of host operations writes each of its buffers once, so a
  buffer it writes holds that operation's function of its operands and a buffer it does not write keeps its contents; a
  product's region writes its output array only, the product of its two input arrays (Regions). Chaining these from the
  end back to the launch memory gives the result as `gcn` of the six arguments.
-/
import proofs.«115169_j35897336660441_1_alg».proof.Proof.Gen.KernelIdeal.Frame
import proofs.«115169_j35897336660441_1_alg».proof.Proof.Regions
import proofs.«115169_j35897336660441_1_alg».proof.Proof.Gcn
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Two small facts about the host operations -/

/-- A two-part `concatenate` is determined by the values of its two parts. -/
@[congr] theorem concatenate_two_congr {α : Type} {t : Shape} {a : Fin t.rank} {s₁ s₂ : Shape}
    {x x' : s₁.Idx → α} {y y' : s₂.Idx → α} (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

/-! An operation of an outlined function (`where`, `relu`) carries a value to and from a buffer along the equality
    between the buffer's type and the value's type. For each buffer below the two types coincide, so that carrying is
    the identity, in both directions. -/

theorem toBuf_main_cst_2 (v : (⟨S_, .f32⟩ : BufTy).Contents (Elt Ideal)) :
    (TRef.of (sig := sig) (T := ⟨S_, .f32⟩) main_cst_2).toBuf (Val := Elt Ideal) v = v := eq_of_heq (cast_heq _ _)
theorem ofBuf_main_cst_2 (v : (⟨S_, .f32⟩ : BufTy).Contents (Elt Ideal)) :
    (TRef.of (sig := sig) (T := ⟨S_, .f32⟩) main_cst_2).ofBuf (Val := Elt Ideal) v = v := eq_of_heq (cast_heq _ _)

theorem toBuf_main_call0_v0 (v : (⟨S_, .f32⟩ : BufTy).Contents (Elt Ideal)) :
    (TRef.of (sig := sig) (T := ⟨S_, .f32⟩) main_call0_v0).toBuf (Val := Elt Ideal) v = v := eq_of_heq (cast_heq _ _)
theorem ofBuf_main_call0_v0 (v : (⟨S_, .f32⟩ : BufTy).Contents (Elt Ideal)) :
    (TRef.of (sig := sig) (T := ⟨S_, .f32⟩) main_call0_v0).ofBuf (Val := Elt Ideal) v = v := eq_of_heq (cast_heq _ _)

theorem toBuf_main_call0_v1 (v : (⟨S50000, .f32⟩ : BufTy).Contents (Elt Ideal)) :
    (TRef.of (sig := sig) (T := ⟨S50000, .f32⟩) main_call0_v1).toBuf (Val := Elt Ideal) v = v := eq_of_heq (cast_heq _ _)
theorem ofBuf_main_call0_v1 (v : (⟨S50000, .f32⟩ : BufTy).Contents (Elt Ideal)) :
    (TRef.of (sig := sig) (T := ⟨S50000, .f32⟩) main_call0_v1).ofBuf (Val := Elt Ideal) v = v := eq_of_heq (cast_heq _ _)

theorem toBuf_main_v12 (v : (⟨S50000, .i1⟩ : BufTy).Contents (Elt Ideal)) :
    (TRef.of (sig := sig) (T := ⟨S50000, .i1⟩) main_v12).toBuf (Val := Elt Ideal) v = v := eq_of_heq (cast_heq _ _)
theorem ofBuf_main_v12 (v : (⟨S50000, .i1⟩ : BufTy).Contents (Elt Ideal)) :
    (TRef.of (sig := sig) (T := ⟨S50000, .i1⟩) main_v12).ofBuf (Val := Elt Ideal) v = v := eq_of_heq (cast_heq _ _)

theorem toBuf_main_v13 (v : (⟨S50000, .f32⟩ : BufTy).Contents (Elt Ideal)) :
    (TRef.of (sig := sig) (T := ⟨S50000, .f32⟩) main_v13).toBuf (Val := Elt Ideal) v = v := eq_of_heq (cast_heq _ _)
theorem ofBuf_main_v13 (v : (⟨S50000, .f32⟩ : BufTy).Contents (Elt Ideal)) :
    (TRef.of (sig := sig) (T := ⟨S50000, .f32⟩) main_v13).ofBuf (Val := Elt Ideal) v = v := eq_of_heq (cast_heq _ _)

theorem toBuf_main_v14 (v : (⟨S50000, .f32⟩ : BufTy).Contents (Elt Ideal)) :
    (TRef.of (sig := sig) (T := ⟨S50000, .f32⟩) main_v14).toBuf (Val := Elt Ideal) v = v := eq_of_heq (cast_heq _ _)
theorem ofBuf_main_v14 (v : (⟨S50000, .f32⟩ : BufTy).Contents (Elt Ideal)) :
    (TRef.of (sig := sig) (T := ⟨S50000, .f32⟩) main_v14).ofBuf (Val := Elt Ideal) v = v := eq_of_heq (cast_heq _ _)

theorem toBuf_main_call1_cst (v : (⟨S_, .f32⟩ : BufTy).Contents (Elt Ideal)) :
    (TRef.of (sig := sig) (T := ⟨S_, .f32⟩) main_call1_cst).toBuf (Val := Elt Ideal) v = v := eq_of_heq (cast_heq _ _)
theorem ofBuf_main_call1_cst (v : (⟨S_, .f32⟩ : BufTy).Contents (Elt Ideal)) :
    (TRef.of (sig := sig) (T := ⟨S_, .f32⟩) main_call1_cst).ofBuf (Val := Elt Ideal) v = v := eq_of_heq (cast_heq _ _)

theorem toBuf_main_call1_v0 (v : (⟨S50000x256, .f32⟩ : BufTy).Contents (Elt Ideal)) :
    (TRef.of (sig := sig) (T := ⟨S50000x256, .f32⟩) main_call1_v0).toBuf (Val := Elt Ideal) v = v := eq_of_heq (cast_heq _ _)
theorem ofBuf_main_call1_v0 (v : (⟨S50000x256, .f32⟩ : BufTy).Contents (Elt Ideal)) :
    (TRef.of (sig := sig) (T := ⟨S50000x256, .f32⟩) main_call1_v0).ofBuf (Val := Elt Ideal) v = v := eq_of_heq (cast_heq _ _)

theorem toBuf_main_v46 (v : (⟨S50000x256, .f32⟩ : BufTy).Contents (Elt Ideal)) :
    (TRef.of (sig := sig) (T := ⟨S50000x256, .f32⟩) main_v46).toBuf (Val := Elt Ideal) v = v := eq_of_heq (cast_heq _ _)
theorem ofBuf_main_v46 (v : (⟨S50000x256, .f32⟩ : BufTy).Contents (Elt Ideal)) :
    (TRef.of (sig := sig) (T := ⟨S50000x256, .f32⟩) main_v46).ofBuf (Val := Elt Ideal) v = v := eq_of_heq (cast_heq _ _)

theorem toBuf_main_v47 (v : (⟨S50000x256, .f32⟩ : BufTy).Contents (Elt Ideal)) :
    (TRef.of (sig := sig) (T := ⟨S50000x256, .f32⟩) main_v47).toBuf (Val := Elt Ideal) v = v := eq_of_heq (cast_heq _ _)
theorem ofBuf_main_v47 (v : (⟨S50000x256, .f32⟩ : BufTy).Contents (Elt Ideal)) :
    (TRef.of (sig := sig) (T := ⟨S50000x256, .f32⟩) main_v47).ofBuf (Val := Elt Ideal) v = v := eq_of_heq (cast_heq _ _)

/-! ## Before the first product: the edge lists, the edge weights, the arguments -/

set_option maxHeartbeats 4000000 in
theorem W3_v5 : W3 m ρ c (Proc.devRef .tc main_v5) = srcOf (F := Ideal) (m ((c : Thread nD τ).loc main_arg1)) := by
  show StableHlo.after hostOps0_2 (StableHlo.after hostOps0_1 (StableHlo.after hostOps0 (W0 m ρ c))) (Proc.devRef .tc main_v5) = _
  simp only [hostOps0, hostOps0_1, hostOps0_2]
  after_results_simp
  rfl

set_option maxHeartbeats 4000000 in
theorem W3_v6 : W3 m ρ c (Proc.devRef .tc main_v6) = dstOf (F := Ideal) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp
  rfl

set_option maxHeartbeats 4000000 in
theorem W3_v29 : W3 m ρ c (Proc.devRef .tc main_v29)
    = normOf (F := Ideal) (srcOf (F := Ideal) (m ((c : Thread nD τ).loc main_arg1))) (dstOf (F := Ideal) (m ((c : Thread nD τ).loc main_arg1))) := by
  show StableHlo.after hostOps0_2 (StableHlo.after hostOps0_1 (StableHlo.after hostOps0 (W0 m ρ c))) (Proc.devRef .tc main_v29) = _
  simp only [hostOps0, hostOps0_1, hostOps0_2]
  after_results_simp
  rw [toBuf_main_v14, ofBuf_main_v12, ofBuf_main_v13, ofBuf_main_call0_v1, toBuf_main_call0_v1, ofBuf_main_call0_v0, toBuf_main_call0_v0,
    ofBuf_main_cst_2]
  rfl

set_option maxHeartbeats 4000000 in
theorem W3_arg (b : Ref sig .tc) (hb : b = main_arg0 ∨ b = main_arg2 ∨ b = main_arg3 ∨ b = main_arg4 ∨ b = main_arg5) :
    W3 m ρ c (Proc.devRef .tc b) = m ((c : Thread nD τ).loc b) := by
  rcases hb with rfl | rfl | rfl | rfl | rfl <;>
  · show StableHlo.after hostOps0_2 (StableHlo.after hostOps0_1 (StableHlo.after hostOps0 (W0 m ρ c))) _ = _
    simp only [hostOps0, hostOps0_1, hostOps0_2]
    after_results_simp

/-! ## After the first product -/

theorem W4_v30 : W4 m ρ c (Proc.devRef .tc main_v30)
    = dotA (m ((c : Thread nD τ).loc main_arg0)) (m ((c : Thread nD τ).loc main_arg2)) := by
  refine (W4_arr m ρ c 2).trans ((final0 (V3 m ρ) c).trans ?_)
  show dotA (W3 m ρ c (Proc.devRef .tc main_arg0)) (W3 m ρ c (Proc.devRef .tc main_arg2)) = _
  rw [W3_arg m ρ c main_arg0 (Or.inl rfl), W3_arg m ρ c main_arg2 (Or.inr (Or.inl rfl))]

/-! ## Before the second product: the first layer -/

set_option maxHeartbeats 4000000 in
theorem W6_v47 : W6 m ρ c (Proc.devRef .tc main_v47)
    = reluA (F := Ideal) (aggA (F := Ideal) (W4 m ρ c (Proc.devRef .tc main_v30)) (W4 m ρ c (Proc.devRef .tc main_v5))
        (W4 m ρ c (Proc.devRef .tc main_v6)) (W4 m ρ c (Proc.devRef .tc main_v29)) (W4 m ρ c (Proc.devRef .tc main_arg3))) := by
  show StableHlo.after hostOps1_1 (StableHlo.after hostOps1 (W4 m ρ c)) (Proc.devRef .tc main_v47) = _
  simp only [hostOps1, hostOps1_1]
  after_results_simp
  rw [toBuf_main_v47, ofBuf_main_v46, ofBuf_main_call1_v0, toBuf_main_call1_v0, ofBuf_main_call1_cst, toBuf_main_call1_cst]
  rfl

set_option maxHeartbeats 4000000 in
theorem W6_keep (b : Ref sig .tc) (hb : b = main_v5 ∨ b = main_v6 ∨ b = main_v29 ∨ b = main_arg4 ∨ b = main_arg5) :
    W6 m ρ c (Proc.devRef .tc b) = W4 m ρ c (Proc.devRef .tc b) := by
  rcases hb with rfl | rfl | rfl | rfl | rfl <;>
  · show StableHlo.after hostOps1_1 (StableHlo.after hostOps1 (W4 m ρ c)) _ = _
    simp only [hostOps1, hostOps1_1]
    after_results_simp

/-- What the first product's region does not write, it keeps. -/
theorem W4_keep (b : Ref sig .tc) (hb : b = main_v5 ∨ b = main_v6 ∨ b = main_v29 ∨ b = main_arg3 ∨ b = main_arg4 ∨ b = main_arg5) :
    W4 m ρ c (Proc.devRef .tc b) = W3 m ρ c (Proc.devRef .tc b) := by
  rcases hb with rfl | rfl | rfl | rfl | rfl | rfl <;> exact W4_of_ne m ρ c _ (by decide)

/-! ## After the second product, and the last stretch -/

theorem W7_v48 : W7 m ρ c (Proc.devRef .tc main_v48)
    = dotB (W6 m ρ c (Proc.devRef .tc main_v47)) (W6 m ρ c (Proc.devRef .tc main_arg4)) :=
  (W7_arr m ρ c 2).trans (final1 (V6 m ρ) c)

theorem W7_keep (b : Ref sig .tc) (hb : b = main_v5 ∨ b = main_v6 ∨ b = main_v29 ∨ b = main_arg5) :
    W7 m ρ c (Proc.devRef .tc b) = W6 m ρ c (Proc.devRef .tc b) := by
  rcases hb with rfl | rfl | rfl | rfl <;> exact W7_of_ne m ρ c _ (by decide)

set_option maxHeartbeats 4000000 in
theorem W8_v64 : W8 m ρ c (Proc.devRef .tc main_v64)
    = aggB (F := Ideal) (W7 m ρ c (Proc.devRef .tc main_v48)) (W7 m ρ c (Proc.devRef .tc main_v5))
        (W7 m ρ c (Proc.devRef .tc main_v6)) (W7 m ρ c (Proc.devRef .tc main_v29)) (W7 m ρ c (Proc.devRef .tc main_arg5)) := by
  show StableHlo.after hostOps2 (W7 m ρ c) (Proc.devRef .tc main_v64) = _
  simp only [hostOps2]
  after_results_simp
  rfl

/-! ## The result -/

/-- The program's result buffer ends at the graph convolution of the six launch arrays. -/
theorem result_eq : W8 m ρ c (Proc.devRef .tc main_v64)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W8_v64, W7_v48, W6_v47, W4_v30,
    W7_keep m ρ c main_v5 (Or.inl rfl), W7_keep m ρ c main_v6 (Or.inr (Or.inl rfl)), W7_keep m ρ c main_v29 (Or.inr (Or.inr (Or.inl rfl))),
    W7_keep m ρ c main_arg5 (Or.inr (Or.inr (Or.inr rfl))),
    W6_keep m ρ c main_v5 (Or.inl rfl), W6_keep m ρ c main_v6 (Or.inr (Or.inl rfl)), W6_keep m ρ c main_v29 (Or.inr (Or.inr (Or.inl rfl))),
    W6_keep m ρ c main_arg4 (Or.inr (Or.inr (Or.inr (Or.inl rfl)))), W6_keep m ρ c main_arg5 (Or.inr (Or.inr (Or.inr (Or.inr rfl)))),
    W4_keep m ρ c main_v5 (Or.inl rfl), W4_keep m ρ c main_v6 (Or.inr (Or.inl rfl)), W4_keep m ρ c main_v29 (Or.inr (Or.inr (Or.inl rfl))),
    W4_keep m ρ c main_arg3 (Or.inr (Or.inr (Or.inr (Or.inl rfl)))), W4_keep m ρ c main_arg4 (Or.inr (Or.inr (Or.inr (Or.inr (Or.inl rfl))))),
    W4_keep m ρ c main_arg5 (Or.inr (Or.inr (Or.inr (Or.inr (Or.inr rfl))))),
    W3_v5, W3_v6, W3_v29,
    W3_arg m ρ c main_arg3 (Or.inr (Or.inr (Or.inl rfl))), W3_arg m ρ c main_arg4 (Or.inr (Or.inr (Or.inr (Or.inl rfl)))),
    W3_arg m ρ c main_arg5 (Or.inr (Or.inr (Or.inr (Or.inr rfl))))]
  rfl

end Cert.KernelIdeal.Hand

end
-- ==== Proof.RefValue.lean ====
/-
  The reference program's result is the same graph convolution of its arguments.

  The reference's run states its result as one composed term of the launch arrays. That term is, operation for
  operation, the composition `gcn` names: the matrix products are the host's `dot_general`, the degree vector, its
  inverse square root, the edge weights, and each layer's gather, scaling, accumulating scatter and bias are the same
  operations on the same operands in the same order; the reference merely writes the edge weights out twice, once per
  layer. So the two sides agree by unfolding the names.
-/
import proofs.«115169_j35897336660441_1_alg».proof.Proof.RefRun
import proofs.«115169_j35897336660441_1_alg».proof.Proof.Gcn

set_option maxRecDepth 16384

noncomputable section

namespace Cert.ReferenceIdeal.Hand

open Cert.ReferenceIdeal
open Idealize.ShloMosaic Idealize.ShloMosaic.TcCoe Idealize.SL.Sem

variable (m : (ℓ : Loc nD τ sig) → Buf (Elt Ideal) ℓ) (c : Dev nD)

set_option maxHeartbeats 4000000 in
/-- The reference's composed result term is `gcn` of its six launch arrays. -/
theorem result_eq : Cert.ReferenceIdeal.ValueP.res_main_v90 (F := Ideal) m c
    = Cert.KernelIdeal.Hand.gcn (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  unfold Cert.ReferenceIdeal.ValueP.res_main_v90 Cert.KernelIdeal.Hand.gcn Cert.KernelIdeal.Hand.aggB Cert.KernelIdeal.Hand.aggA
    Cert.KernelIdeal.Hand.reluA Cert.KernelIdeal.Hand.normOf Cert.KernelIdeal.Hand.dinvOf Cert.KernelIdeal.Hand.degOf
    Cert.KernelIdeal.Hand.wrapIdx Cert.KernelIdeal.Hand.srcOf Cert.KernelIdeal.Hand.dstOf
  rfl

end Cert.ReferenceIdeal.Hand

end
-- ==== Proof.lean ====
/-
  A two-layer graph convolution (PyG-style GCNConv with self-loops and symmetric degree normalisation) whose two dense
  projections run as pipelined TPU matrix products over 25 blocks of 2000 rows, against the same network written with
  plain matrix products.

  Over the extended reals both programs compute
      out = A (relu (A (z W1) + b1) W2) + b2,   A x = scatter-add at the targets of (x[sources] · norm),
  norm = dinv[s] · dinv[d], dinv = deg^(-1/2) where deg > 0 (else 0), deg = the number of edges ending at a node.
  The kernel's casts of the products' operands to bf16 are the identity there and its block products, written back block
  by block, tile the whole product (Regions); every other operation of the two programs is the same host operation on the
  same operands in the same order, the reference merely recomputing the edge weights for its second layer. So both
  results are `gcn` of the arguments: the kernel's by reading its chain of host stretches and regions backwards from the
  result (KernelRun, KernelValue), the reference's by unfolding its run's composed term (RefRun, RefValue). No law of
  arithmetic is used, so the precondition (finite inputs) is never opened.

  The three frames: the two kernel programs' are the generated frame certificates; the reference has no kernel and its
  frame is its run with the result dropped. The idealization rewrote no operation, so `preserves` is `True`.
-/
import proofs.«115169_j35897336660441_1_alg».proof.Defs
import proofs.«115169_j35897336660441_1_alg».proof.Proof.Gen.Kernel
import proofs.«115169_j35897336660441_1_alg».proof.Proof.Gen.Kernel.Skeleton
import proofs.«115169_j35897336660441_1_alg».proof.Proof.Gen.Kernel.Launch
import proofs.«115169_j35897336660441_1_alg».proof.Proof.Gen.Kernel.Points
import proofs.«115169_j35897336660441_1_alg».proof.Proof.Gen.Kernel.Frame
import proofs.«115169_j35897336660441_1_alg».proof.Proof.Gen.KernelIdeal
import proofs.«115169_j35897336660441_1_alg».proof.Proof.Gen.KernelIdeal.Skeleton
import proofs.«115169_j35897336660441_1_alg».proof.Proof.Gen.KernelIdeal.Launch
import proofs.«115169_j35897336660441_1_alg».proof.Proof.Gen.KernelIdeal.Points
import proofs.«115169_j35897336660441_1_alg».proof.Proof.Gen.KernelIdeal.Frame
import proofs.«115169_j35897336660441_1_alg».proof.Proof.Gen.ReferenceIdeal
import proofs.«115169_j35897336660441_1_alg».proof.Proof.Gen.Pre_finite_inputs
import proofs.«115169_j35897336660441_1_alg».proof.Proof.KernelRun
import proofs.«115169_j35897336660441_1_alg».proof.Proof.KernelValue
import proofs.«115169_j35897336660441_1_alg».proof.Proof.RefRun
import proofs.«115169_j35897336660441_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with their result at `gcn` of arguments that agree. -/
theorem algebraic : Cert.algebraic_KernelIdeal_ReferenceIdeal := by
  intro m ρ m' ρ' _ hagree
  refine ⟨fun c => Cert.KernelIdeal.Hand.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.result_eq m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5⟩ := hagree c
    rw [Cert.ReferenceIdeal.Hand.result_eq m' c, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
